-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x2048 : Shape := ⟨3, ![8, 64, 2048]⟩
abbrev S9x128 : Shape := ⟨2, ![9, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S8x64x2048 : S_.BroadcastsInDim S8x64x2048 (![] : Fin 0 → Fin S8x64x2048.rank)
  reducesTo_S8x64x2048_S_d0_1_2 : S8x64x2048.ReducesTo [0, 1, 2] S_
  h_S_ : 0 < S_.numel
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8x64x2048 .f32) (main_arg1 : FVec F S9x128 .f32) (main_arg2 : FVec F S128 .f32) (main_arg3 : FVec F S128x1 .f32) (main_arg4 : FVec F S1 .f32) : IVec S_ 1 :=
  let main_v0 : FVec F S8x64x2048 .f32 := Host.absf main_arg0
  let main_cst : FVec F S_ .f32 := constant S_ .f32 0x7F800000#32
  let main_v1 : FVec F S8x64x2048 .f32 := broadcastInDim S8x64x2048 ![] bcast_S_S8x64x2048 main_cst
  let main_v2 : IVec S8x64x2048 1 := cmpf .olt main_v0 main_v1
  let main_c : IVec S_ 1 := constantI S_ 1 1#1
  let main_v3 : IVec S_ 1 := (fun x v => Host.reduce IntOp.andi x v reducesTo_S8x64x2048_S_d0_1_2 h_S_) main_v2 main_c
  let main_v4 : FVec F S9x128 .f32 := Host.absf main_arg1
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S8x64x2048 : Shape := ⟨3, ![8, 64, 2048]⟩
abbrev S9x128 : Shape := ⟨2, ![9, 128]⟩
abbrev S128 : Shape := ⟨1, ![128]⟩
abbrev S128x1 : Shape := ⟨2, ![128, 1]⟩
abbrev S1 : Shape := ⟨1, ![1]⟩
abbrev S512x2048 : Shape := ⟨2, ![512, 2048]⟩
abbrev S_ : Shape := ⟨0, ![]⟩
abbrev S512x2056 : Shape := ⟨2, ![512, 2056]⟩
abbrev S64x2056 : Shape := ⟨2, ![64, 2056]⟩
abbrev S64x2048 : Shape := ⟨2, ![64, 2048]⟩
abbrev S64x136 : Shape := ⟨2, ![64, 136]⟩
abbrev S64x128 : Shape := ⟨2, ![64, 128]⟩
abbrev S1x64x128 : Shape := ⟨3, ![1, 64, 128]⟩
abbrev S9x64x128 : Shape := ⟨3, ![9, 64, 128]⟩
abbrev S64x128x9 : Shape := ⟨3, ![64, 128, 9]⟩
abbrev S8192x9 : Shape := ⟨2, ![8192, 9]⟩
abbrev S8192x128 : Shape := ⟨2, ![8192, 128]⟩
abbrev S1x128 : Shape := ⟨2, ![1, 128]⟩
abbrev S8192 : Shape := ⟨1, ![8192]⟩

abbrev nBuf : Space → Nat
  | .hbm => 11
  | .vmem => 8
  | .smem => 0
  | _ => 0

abbrev bufTy : (tb : Table) → Fin (tcTables nBuf tb) → BufTy
  | .hbm, ⟨0, _⟩ => ⟨S8x64x2048, .f32⟩
  | .hbm, ⟨1, _⟩ => ⟨S9x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S512x2048, .f32⟩
  | .hbm, ⟨6, _⟩ => ⟨S_, .i32⟩
  | .hbm, ⟨7, _⟩ => ⟨S_, .f32⟩
  | .hbm, ⟨8, _⟩ => ⟨S512x2056, .f32⟩
  | .hbm, ⟨9, _⟩ => ⟨S512x2048, .f32⟩
  | .hbm, ⟨10, _⟩ => ⟨S8x64x2048, .f32⟩
  | .local _ .vmem, ⟨0, _⟩ => ⟨S64x2056, .f32⟩
  | .local _ .vmem, ⟨1, _⟩ => ⟨S64x2056, .f32⟩
  | .local _ .vmem, ⟨2, _⟩ => ⟨S9x128, .f32⟩
  | .local _ .vmem, ⟨3, _⟩ => ⟨S128, .f32⟩
  | .local _ .vmem, ⟨4, _⟩ => ⟨S128x1, .f32⟩
  | .local _ .vmem, ⟨5, _⟩ => ⟨S1, .f32⟩
  | .local _ .vmem, ⟨6, _⟩ => ⟨S64x2048, .f32⟩
  | .local _ .vmem, ⟨7, _⟩ => ⟨S64x2048, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c128_i32 : BitVec 32 := 128#32
  let v6 : BitVec 32 := Scalar.muli c0_i32 c128_i32
  v6
def k0_off1 (c0_i32 : BitVec 32) : Fin 2 → Nat :=
  let c0_5 : Index := 0#32
  let c128_i32 : BitVec 32 := 128#32
  let v6 : BitVec 32 := Scalar.muli c0_i32 c128_i32
  let v7 : BitVec 32 := v6
  let v8 : Index := Scalar.indexCast v7
  ![0, v8.toNat]
def k0_mult2 : BitVec 32 :=
  let c0_i32 : BitVec 32 := 0#32
  let c128_i32_8 : BitVec 32 := 128#32
  let v46 : BitVec 32 := Scalar.muli c0_i32 c128_i32_8
  v46
def k0_off2 (c0_i32 : BitVec 32) : Fin 2 → Nat :=
  let c0_9 : Index := 0#32
  let c128_i32_8 : BitVec 32 := 128#32
  let v46 : BitVec 32 := Scalar.muli c0_i32 c128_i32_8
  let v47 : BitVec 32 := v46
  let v48 : Index := Scalar.indexCast v47
  ![0, v48.toNat]
def k0_mult3 : BitVec 32 :=
  let c1_i32 : BitVec 32 := 1#32
  let c128_i32_10 : BitVec 32 := 128#32
  let v50 : BitVec 32 := Scalar.muli c1_i32 c128_i32_10
  v50
def k0_mult4 : BitVec 32 :=
  let c1_i32 : BitVec 32 := 1#32
  let c128_i32_15 : BitVec 32 := 128#32
  let v90 : BitVec 32 := Scalar.muli c1_i32 c128_i32_15
  v90
def k0_mult5 : BitVec 32 :=
  let c2_i32 : BitVec 32 := 2#32
  let c128_i32_17 : BitVec 32 := 128#32
  let v94 : BitVec 32 := Scalar.muli c2_i32 c128_i32_17
  v94
def k0_mult6 : BitVec 32 :=
  let c2_i32 : BitVec 32 := 2#32
  let c128_i32_22 : BitVec 32 := 128#32
  let v134 : BitVec 32 := Scalar.muli c2_i32 c128_i32_22
  v134
def k0_mult7 : BitVec 32 :=
  let c3_i32 : BitVec 32 := 3#32
  let c128_i32_24 : BitVec 32 := 128#32
  let v138 : BitVec 32 := Scalar.muli c3_i32 c128_i32_24
  v138
def k0_mult8 : BitVec 32 :=
  let c3_i32 : BitVec 32 := 3#32
  let c128_i32_29 : BitVec 32 := 128#32
  let v178 : BitVec 32 := Scalar.muli c3_i32 c128_i32_29
  v178
def k0_mult9 : BitVec 32 :=
  let c4_i32 : BitVec 32 := 4#32
  let c128_i32_31 : BitVec 32 := 128#32
  let v182 : BitVec 32 := Scalar.muli c4_i32 c128_i32_31
  v182
def k0_mult10 : BitVec 32 :=
  let c4_i32 : BitVec 32 := 4#32
  let c128_i32_36 : BitVec 32 := 128#32
  let v222 : BitVec 32 := Scalar.muli c4_i32 c128_i32_36
  v222
def k0_mult11 : BitVec 32 :=
  let c5_i32 : BitVec 32 := 5#32
  let c128_i32_38 : BitVec 32 := 128#32
  let v226 : BitVec 32 := Scalar.muli c5_i32 c128_i32_38
  v226
def k0_mult12 : BitVec 32 :=
  let c5_i32 : BitVec 32 := 5#32
  let c128_i32_43 : BitVec 32 := 128#32
  let v266 : BitVec 32 := Scalar.muli c5_i32 c128_i32_43
  v266
def k0_mult13 : BitVec 32 :=
  let c6_i32 : BitVec 32 := 6#32
  let c128_i32_45 : BitVec 32 := 128#32
  let v270 : BitVec 32 := Scalar.muli c6_i32 c128_i32_45
  v270
def k0_mult14 : BitVec 32 :=
  let c6_i32 : BitVec 32 := 6#32
  let c128_i32_50 : BitVec 32 := 128#32
  let v310 : BitVec 32 := Scalar.muli c6_i32 c128_i32_50
  v310
def k0_mult15 : BitVec 32 :=
  let c7_i32 : BitVec 32 := 7#32
  let c128_i32_52 : BitVec 32 := 128#32
  let v314 : BitVec 32 := Scalar.muli c7_i32 c128_i32_52
  v314
def k0_mult16 : BitVec 32 :=
  let c7_i32 : BitVec 32 := 7#32
  let c128_i32_57 : BitVec 32 := 128#32
  let v354 : BitVec 32 := Scalar.muli c7_i32 c128_i32_57
  v354
def k0_mult17 : BitVec 32 :=
  let c8_i32 : BitVec 32 := 8#32
  let c128_i32_59 : BitVec 32 := 128#32
  let v358 : BitVec 32 := Scalar.muli c8_i32 c128_i32_59
  v358
def k0_mult18 : BitVec 32 :=
  let c8_i32 : BitVec 32 := 8#32
  let c128_i32_64 : BitVec 32 := 128#32
  let v398 : BitVec 32 := Scalar.muli c8_i32 c128_i32_64
  v398
def k0_mult19 : BitVec 32 :=
  let c9_i32 : BitVec 32 := 9#32
  let c128_i32_66 : BitVec 32 := 128#32
  let v402 : BitVec 32 := Scalar.muli c9_i32 c128_i32_66
  v402
def k0_mult20 : BitVec 32 :=
  let c9_i32 : BitVec 32 := 9#32
  let c128_i32_71 : BitVec 32 := 128#32
  let v442 : BitVec 32 := Scalar.muli c9_i32 c128_i32_71
  v442
def k0_mult21 : BitVec 32 :=
  let c10_i32 : BitVec 32 := 10#32
  let c128_i32_73 : BitVec 32 := 128#32
  let v446 : BitVec 32 := Scalar.muli c10_i32 c128_i32_73
  v446
def k0_mult22 : BitVec 32 :=
  let c10_i32 : BitVec 32 := 10#32
  let c128_i32_78 : BitVec 32 := 128#32
  let v486 : BitVec 32 := Scalar.muli c10_i32 c128_i32_78
  v486
def k0_mult23 : BitVec 32 :=
  let c11_i32 : BitVec 32 := 11#32
  let c128_i32_80 : BitVec 32 := 128#32
  let v490 : BitVec 32 := Scalar.muli c11_i32 c128_i32_80
  v490
def k0_mult24 : BitVec 32 :=
  let c11_i32 : BitVec 32 := 11#32
  let c128_i32_85 : BitVec 32 := 128#32
  let v530 : BitVec 32 := Scalar.muli c11_i32 c128_i32_85
  v530
def k0_mult25 : BitVec 32 :=
  let c12_i32 : BitVec 32 := 12#32
  let c128_i32_87 : BitVec 32 := 128#32
  let v534 : BitVec 32 := Scalar.muli c12_i32 c128_i32_87
  v534
def k0_mult26 : BitVec 32 :=
  let c12_i32 : BitVec 32 := 12#32
  let c128_i32_92 : BitVec 32 := 128#32
  let v574 : BitVec 32 := Scalar.muli c12_i32 c128_i32_92
  v574
def k0_mult27 : BitVec 32 :=
  let c13_i32 : BitVec 32 := 13#32
  let c128_i32_94 : BitVec 32 := 128#32
  let v578 : BitVec 32 := Scalar.muli c13_i32 c128_i32_94
  v578
def k0_mult28 : BitVec 32 :=
  let c13_i32 : BitVec 32 := 13#32
  let c128_i32_99 : BitVec 32 := 128#32
  let v618 : BitVec 32 := Scalar.muli c13_i32 c128_i32_99
  v618
def k0_mult29 : BitVec 32 :=
  let c14_i32 : BitVec 32 := 14#32
  let c128_i32_101 : BitVec 32 := 128#32
  let v622 : BitVec 32 := Scalar.muli c14_i32 c128_i32_101
  v622
def k0_mult30 : BitVec 32 :=
  let c14_i32 : BitVec 32 := 14#32
  let c128_i32_106 : BitVec 32 := 128#32
  let v662 : BitVec 32 := Scalar.muli c14_i32 c128_i32_106
  v662
def k0_mult31 : BitVec 32 :=
  let c15_i32 : BitVec 32 := 15#32
  let c128_i32_108 : BitVec 32 := 128#32
  let v666 : BitVec 32 := Scalar.muli c15_i32 c128_i32_108
  v666
def k0_mult32 : BitVec 32 :=
  let c15_i32 : BitVec 32 := 15#32
  let c128_i32_113 : BitVec 32 := 128#32
  let v706 : BitVec 32 := Scalar.muli c15_i32 c128_i32_113
  v706
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x64x2048_S512x2048 : S8x64x2048.ShapeCasts S512x2048
  pads_S512x2048_S512x2056_000_440 : S512x2048.Pads (![0, 4] : Fin 2 → Nat) ![0, 4] ![0, 0] S512x2056
  h_S_ : 0 < S_.numel
  inb_S9x128_S9x128_0_0 : ∀ a, (![0, 0] : Fin 2 → Nat) a + S9x128.size a ≤ S9x128.size a
  h_S9x128 : 0 < S9x128.numel
  bitsLt_bf16_f32 : FTy.bits .bf16 < FTy.bits .f32
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  shapeCasts_S128x1_S128 : S128x1.ShapeCasts S128
  inb_S1_S1_0 : ∀ a, (![0] : Fin 1 → Nat) a + S1.size a ≤ S1.size a
  h_S1 : 0 < S1.numel
  h_S64x136 : 0 < S64x136.numel
  shapeCasts_S64x136_S64x136 : S64x136.ShapeCasts S64x136
  slices_S64x136_o0_0_S64x128 : S64x136.Slices ![0, 0] S64x128
  slices_S64x136_o0_1_S64x128 : S64x136.Slices ![0, 1] S64x128
  slices_S64x136_o0_2_S64x128 : S64x136.Slices ![0, 2] S64x128
  slices_S64x136_o0_3_S64x128 : S64x136.Slices ![0, 3] S64x128
  slices_S64x136_o0_4_S64x128 : S64x136.Slices ![0, 4] S64x128
  slices_S64x136_o0_5_S64x128 : S64x136.Slices ![0, 5] S64x128
  slices_S64x136_o0_6_S64x128 : S64x136.Slices ![0, 6] S64x128
  slices_S64x136_o0_7_S64x128 : S64x136.Slices ![0, 7] S64x128
  slices_S64x136_o0_8_S64x128 : S64x136.Slices ![0, 8] S64x128
  shapeCasts_S64x128_S1x64x128 : S64x128.ShapeCasts S1x64x128
  concatenates_S1x64x128_S1x64x128_S1x64x128_S1x64x128_S1x64x128_S1x64x128_S1x64x128_S1x64x128_S1x64x128_S9x64x128_d0 : Shape.Concatenates [S1x64x128, S1x64x128, S1x64x128, S1x64x128, S1x64x128, S1x64x128, S1x64x128, S1x64x128, S1x64x128] S9x64x128 0
  transposes_S9x64x128_p1_2_0_S64x128x9 : S9x64x128.Transposes [1, 2, 0] S64x128x9
  shapeCasts_S64x128x9_S8192x9 : S64x128x9.ShapeCasts S8192x9
  shapeCasts_S128_S1x128 : S128.ShapeCasts S1x128
  broadcasts_S1x128_S8192x128 : S1x128.Broadcasts S8192x128
  reduces_S8192x128_S8192 : S8192x128.Reduces [1] S8192
  broadcasts_S1_S8192 : S1.Broadcasts S8192
  shapeCasts_S8192_S64x128 : S8192.ShapeCasts S64x128
  h_S64x128 : 0 < S64x128.numel
  shapeCasts_S512x2048_S8x64x2048 : S512x2048.ShapeCasts S8x64x2048
  dot_S8192x9_S9x128_S8192x128_1_0_0_1_n_n_wf : DotDims.WF S8192x9 S9x128 S8192x128 [1] [0] [0] [1] [] []
  hrank0 : 0 < grid0.rank
  k0_mult1_dvd : 128 ∣ k0_mult1.toNat
  k0_off1_inb : ∀ (r : Fin 16), ∀ a, (k0_off1 (BitVec.ofNat 32 r.val)) a + S64x136.size a ≤ S64x2056.size a
  k0_mult2_dvd : 128 ∣ k0_mult2.toNat
  k0_off2_inb : ∀ (r : Fin 16), ∀ a, (k0_off2 (BitVec.ofNat 32 r.val)) a + S64x128.size a ≤ S64x2048.size a
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  k0_mult17_dvd : 128 ∣ k0_mult17.toNat
  k0_mult18_dvd : 128 ∣ k0_mult18.toNat
  k0_mult19_dvd : 128 ∣ k0_mult19.toNat
  k0_mult20_dvd : 128 ∣ k0_mult20.toNat
  k0_mult21_dvd : 128 ∣ k0_mult21.toNat
  k0_mult22_dvd : 128 ∣ k0_mult22.toNat
  k0_mult23_dvd : 128 ∣ k0_mult23.toNat
  k0_mult24_dvd : 128 ∣ k0_mult24.toNat
  k0_mult25_dvd : 128 ∣ k0_mult25.toNat
  k0_mult26_dvd : 128 ∣ k0_mult26.toNat
  k0_mult27_dvd : 128 ∣ k0_mult27.toNat
  k0_mult28_dvd : 128 ∣ k0_mult28.toNat
  k0_mult29_dvd : 128 ∣ k0_mult29.toNat
  k0_mult30_dvd : 128 ∣ k0_mult30.toNat
  k0_mult31_dvd : 128 ∣ k0_mult31.toNat
  k0_mult32_dvd : 128 ∣ k0_mult32.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2056.size a ≤ S512x2056.size a
  hwx0_0 : ∀ i : grid0.Coords, EltTy.bits .f32 = 32 ∨ (Rect.block (s := S512x2056) S64x2056.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S512x2048.size a
  hwx0_5 : ∀ i : grid0.Coords, EltTy.bits .f32 = 32 ∨ (Rect.block (s := S512x2048) S64x2048.size (cc0_transform_5 i) (hinb0_5 i)).WholeWords (EltTy.packing .f32)

variable [Facts₀]

def dot_S8192x9_S9x128_S8192x128_1_0_0_1_n_n : DotDims S8192x9 S9x128 S8192x128 where
  lhsContracting := [1]
  rhsContracting := [0]
  lhsNonContracting := [0]
  rhsNonContracting := [1]
  lhsBatch := []
  rhsBatch := []
  wf := dot_S8192x9_S9x128_S8192x128_1_0_0_1_n_n_wf

abbrev win0_0 : Pipeline.Window sig grid0 :=
  Pipeline.Window.ofSpec (Memref.whole main_v1) S64x2056.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x2048 : Shape := ⟨3, ![8, 64, 2048]⟩
abbrev S9x128 : Shape := ⟨2, ![9, 128]⟩
abbrev S128 : Shape := ⟨1, ![128]⟩
abbrev S128x1 : Shape := ⟨2, ![128, 1]⟩
abbrev S1 : Shape := ⟨1, ![1]⟩
abbrev S_ : Shape := ⟨0, ![]⟩
abbrev S8x64x2056 : Shape := ⟨3, ![8, 64, 2056]⟩
abbrev S2048 : Shape := ⟨1, ![2048]⟩
abbrev S2048x1 : Shape := ⟨2, ![2048, 1]⟩
abbrev S9 : Shape := ⟨1, ![9]⟩
abbrev S1x9 : Shape := ⟨2, ![1, 9]⟩
abbrev S2048x9 : Shape := ⟨2, ![2048, 9]⟩
abbrev S2048x9x1 : Shape := ⟨3, ![2048, 9, 1]⟩
abbrev S8x64x2048x9 : Shape := ⟨4, ![8, 64, 2048, 9]⟩
abbrev S8x64x2048x128 : Shape := ⟨4, ![8, 64, 2048, 128]⟩
abbrev S1x1x1x128 : Shape := ⟨4, ![1, 1, 1, 128]⟩
abbrev S8x64x2048x1 : Shape := ⟨4, ![8, 64, 2048, 1]⟩
abbrev S1x1x1x1 : Shape := ⟨4, ![1, 1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S9x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S8x64x2056, .f32⟩
  | .hbm, ⟨8, _⟩ => ⟨S2048, .i32⟩
  | .hbm, ⟨9, _⟩ => ⟨S2048x1, .i32⟩
  | .hbm, ⟨10, _⟩ => ⟨S_, .i32⟩
  | .hbm, ⟨11, _⟩ => ⟨S2048x1, .i32⟩
  | .hbm, ⟨12, _⟩ => ⟨S2048x1, .i32⟩
  | .hbm, ⟨13, _⟩ => ⟨S9, .i32⟩
  | .hbm, ⟨14, _⟩ => ⟨S1x9, .i32⟩
  | .hbm, ⟨15, _⟩ => ⟨S2048x9, .i32⟩
  | .hbm, ⟨16, _⟩ => ⟨S2048x9, .i32⟩
  | .hbm, ⟨17, _⟩ => ⟨S2048x9, .i32⟩
  | .hbm, ⟨18, _⟩ => ⟨S_, .i32⟩
  | .hbm, ⟨19, _⟩ => ⟨S2048x9, .i32⟩
  | .hbm, ⟨20, _⟩ => ⟨S2048x9, .i1⟩
  | .hbm, ⟨21, _⟩ => ⟨S_, .i32⟩
  | .hbm, ⟨22, _⟩ => ⟨S2048x9, .i32⟩
  | .hbm, ⟨23, _⟩ => ⟨S2048x9, .i32⟩
  | .hbm, ⟨24, _⟩ => ⟨S2048x9, .i32⟩
  | .hbm, ⟨25, _⟩ => ⟨S2048x9x1, .i32⟩
  | .hbm, ⟨26, _⟩ => ⟨S8x64x2048x9, .f32⟩
  | .hbm, ⟨27, _⟩ => ⟨S8x64x2048x128, .f32⟩
  | .hbm, ⟨28, _⟩ => ⟨S1x1x1x128, .f32⟩
  | .hbm, ⟨29, _⟩ => ⟨S8x64x2048x128, .f32⟩
  | .hbm, ⟨30, _⟩ => ⟨S8x64x2048x128, .f32⟩
  | .hbm, ⟨31, _⟩ => ⟨S_, .f32⟩
  | .hbm, ⟨32, _⟩ => ⟨S8x64x2048x128, .f32⟩
  | .hbm, ⟨33, _⟩ => ⟨S8x64x2048x128, .f32⟩
  | .hbm, ⟨34, _⟩ => ⟨S8x64x2048x1, .f32⟩
  | .hbm, ⟨35, _⟩ => ⟨S1x1x1x1, .f32⟩
  | .hbm, ⟨36, _⟩ => ⟨S8x64x2048x1, .f32⟩
  | .hbm, ⟨37, _⟩ => ⟨S8x64x2048x1, .f32⟩
  | .hbm, ⟨38, _⟩ => ⟨S8x64x2048, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  pads_S8x64x2048_S8x64x2056_000_000_440 : S8x64x2048.Pads (![0, 0, 4] : Fin 3 → Nat) ![0, 0, 4] ![0, 0, 0] S8x64x2056
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S9_S1x9_1 : S9.BroadcastsInDim S1x9 (![1] : Fin 1 → Fin S1x9.rank)
  bcast_S2048x1_S2048x9_0_1 : S2048x1.BroadcastsInDim S2048x9 (![0, 1] : Fin 2 → Fin S2048x9.rank)
  bcast_S1x9_S2048x9_0_1 : S1x9.BroadcastsInDim S2048x9 (![0, 1] : Fin 2 → Fin S2048x9.rank)
  bcast_S_S2048x9 : S_.BroadcastsInDim S2048x9 (![] : Fin 0 → Fin S2048x9.rank)
  bcast_S2048x9_S2048x9x1_0_1 : S2048x9.BroadcastsInDim S2048x9x1 (![0, 1] : Fin 2 → Fin S2048x9x1.rank)
  bcast_S128_S1x1x1x128_3 : S128.BroadcastsInDim S1x1x1x128 (![3] : Fin 1 → Fin S1x1x1x128.rank)
  bcast_S1x1x1x128_S8x64x2048x128_0_1_2_3 : S1x1x1x128.BroadcastsInDim S8x64x2048x128 (![0, 1, 2, 3] : Fin 4 → Fin S8x64x2048x128.rank)
  bcast_S_S8x64x2048x128 : S_.BroadcastsInDim S8x64x2048x128 (![] : Fin 0 → Fin S8x64x2048x128.rank)
  bcast_S1_S1x1x1x1_3 : S1.BroadcastsInDim S1x1x1x1 (![3] : Fin 1 → Fin S1x1x1x1.rank)
  bcast_S1x1x1x1_S8x64x2048x1_0_1_2_3 : S1x1x1x1.BroadcastsInDim S8x64x2048x1 (![0, 1, 2, 3] : Fin 4 → Fin S8x64x2048x1.rank)
  shapeCasts_S8x64x2048x1_S8x64x2048 : S8x64x2048x1.ShapeCasts S8x64x2048
  gather_S8x64x2056_S2048x9x1_S8x64x2048x9_01_2_n_n_2_2_8641_wf : GatherDims.WF S8x64x2056 S2048x9x1 S8x64x2048x9 [0, 1] [2] [] [2] [] 2 ![8, 64, 1]
  dot_S8x64x2048x9_S9x128_S8x64x2048x128_3_0_012_1_n_n_wf : DotDims.WF S8x64x2048x9 S9x128 S8x64x2048x128 [3] [0] [0, 1, 2] [1] [] []
  dot_S8x64x2048x128_S128x1_S8x64x2048x1_3_0_012_1_n_n_wf : DotDims.WF S8x64x2048x128 S128x1 S8x64x2048x1 [3] [0] [0, 1, 2] [1] [] []

variable [Facts₀]

def gather_S8x64x2056_S2048x9x1_S8x64x2048x9_01_2_n_n_2_2_8641 : GatherDims S8x64x2056 S2048x9x1 S8x64x2048x9 where
  offsetDims := [0, 1]
  collapsedSliceDims := [2]
  operandBatchingDims := []
  startIndicesBatchingDims := []
  startIndexMap := [2]
  indexVectorDim := 2
  sliceSizes := ![8, 64, 1]
  wf := gather_S8x64x2056_S2048x9x1_S8x64x2048x9_01_2_n_n_2_2_8641_wf
def dot_S8x64x2048x9_S9x128_S8x64x2048x128_3_0_012_1_n_n : DotDims S8x64x2048x9 S9x128 S8x64x2048x128 where
  lhsContracting := [3]
  rhsContracting := [0]
  lhsNonContracting := [0, 1, 2]
  rhsNonContracting := [1]
  lhsBatch := []
  rhsBatch := []
  wf := dot_S8x64x2048x9_S9x128_S8x64x2048x128_3_0_012_1_n_n_wf
def dot_S8x64x2048x128_S128x1_S8x64x2048x1_3_0_012_1_n_n : DotDims S8x64x2048x128 S128x1 S8x64x2048x1 where
  lhsContracting := [3]
  rhsContracting := [0]
  lhsNonContracting := [0, 1, 2]
  rhsNonContracting := [1]
  lhsBatch := []
  rhsBatch := []
  wf := dot_S8x64x2048x128_S128x1_S8x64x2048x1_3_0_012_1_n_n_wf

class Facts : Prop extends Facts₀ where

variable [Facts]
-- ==== Proof.Chunk.lean ====
/-
  One 128-column chunk of a block, in three stages.

  A chunk starts from 136 consecutive columns of the 64 rows of the padded block. Its WINDOWS are the [8192, 9] matrix
  whose row r·128 + j holds the nine entries (r, j), (r, j+1), …, (r, j+8): nine shifted copies of the columns, stacked
  in front, the stack turned so that the shift becomes the last axis, and rows and columns merged. The HIDDEN layer is
  the rectified affine image of each window, windows · W1 + b1 cut off below at the threshold. The OUTPUT contracts the
  hidden layer's 128 entries with the weight column, adds the bias, and lays the 8192 results out as 64 rows of 128.
-/
import proofs.«140190_j38079180046569_2_alg».proof.Proof.Gen.KernelIdeal.Skeleton

noncomputable section

namespace Cert.Chunk

open Idealize.ShloMosaic Cert.KernelIdeal

variable [Cert.KernelIdeal.Facts]
open Cert.KernelIdeal.Facts₀ Cert.KernelIdeal.Facts

variable {F : FTy → Type} [FloatOps F]

/-- Columns o … o+127 of the 136, as a [1, 64, 128] slab. -/
def slab (v : FVec F S64x136 .f32) (o : Nat) (h : S64x136.Slices ![0, o] S64x128) : FVec F S1x64x128 .f32 :=
  shapeCast S1x64x128 (extractStridedSlice S64x128 ![0, o] v h) shapeCasts_S64x128_S1x64x128

/-- The nine slabs stacked along a new leading axis. -/
def stack (v : FVec F S64x136 .f32) : FVec F S9x64x128 .f32 :=
  concatenate S9x64x128 0 [⟨S1x64x128, slab v 0 slices_S64x136_o0_0_S64x128⟩, ⟨S1x64x128, slab v 1 slices_S64x136_o0_1_S64x128⟩,
    ⟨S1x64x128, slab v 2 slices_S64x136_o0_2_S64x128⟩, ⟨S1x64x128, slab v 3 slices_S64x136_o0_3_S64x128⟩,
    ⟨S1x64x128, slab v 4 slices_S64x136_o0_4_S64x128⟩, ⟨S1x64x128, slab v 5 slices_S64x136_o0_5_S64x128⟩,
    ⟨S1x64x128, slab v 6 slices_S64x136_o0_6_S64x128⟩, ⟨S1x64x128, slab v 7 slices_S64x136_o0_7_S64x128⟩,
    ⟨S1x64x128, slab v 8 slices_S64x136_o0_8_S64x128⟩]
    concatenates_S1x64x128_S1x64x128_S1x64x128_S1x64x128_S1x64x128_S1x64x128_S1x64x128_S1x64x128_S1x64x128_S9x64x128_d0

/-- The windows of 136 columns: row r·128 + j is the nine entries from column j of row r. -/
def windows (v9 : Vec F S64x136 .f32) : FVec F S8192x9 .f32 :=
  shapeCast S8192x9 (transpose S64x128x9 [1, 2, 0] (stack (shapeCast S64x136 v9 shapeCasts_S64x136_S64x136))
    transposes_S9x64x128_p1_2_0_S64x128x9) shapeCasts_S64x128x9_S8192x9

/-- The hidden layer: windows · W1 + b1, cut off below at the threshold. -/
def hidden (v0 : Vec F S9x128 .f32) (v2 : Vec F S128 .f32) (W : FVec F S8192x9 .f32) : FVec F S8192x128 .f32 :=
  maximumf (addf (matmul dot_S8192x9_S9x128_S8192x128_1_0_0_1_n_n none (truncf .bf16 W bitsLt_bf16_f32)
      (truncf .bf16 v0 bitsLt_bf16_f32) (constant S8192x128 .f32 0x00000000#32))
    (broadcastTo S8192x128 (shapeCast S1x128 v2 shapeCasts_S128_S1x128) broadcasts_S1x128_S8192x128))
    (broadcast S8192x128 (Scalar.ofBits .f32 0x00000000#32))

/-- The output: the hidden layer against the weight column, plus the bias, as 64 rows of 128. -/
def outOf (v3 : Vec F S128x1 .f32) (v5 : Vec F S1 .f32) (H : FVec F S8192x128 .f32) : FVec F S64x128 .f32 :=
  shapeCast S64x128 (addf (multiReduction .add [1] S8192 (mulf H (broadcastTo S8192x128
      (shapeCast S1x128 (shapeCast S128 v3 shapeCasts_S128x1_S128) shapeCasts_S128_S1x128) broadcasts_S1x128_S8192x128))
      0x00000000#32 reduces_S8192x128_S8192 (.inl rfl) rfl) (broadcastTo S8192 v5 broadcasts_S1_S8192)) shapeCasts_S8192_S64x128

/-- One chunk: from 136 columns of the block and the four parameter arrays to 128 columns of the result. -/
def chunk (v0 : Vec F S9x128 .f32) (v2 : Vec F S128 .f32) (v3 : Vec F S128x1 .f32) (v5 : Vec F S1 .f32)
    (v9 : Vec F S64x136 .f32) : FVec F S64x128 .f32 :=
  outOf v3 v5 (hidden v0 v2 (windows v9))

/-- The body's first chunk, as printed in one piece, is this function. -/
theorem pay4_eq (v0 : Vec F S9x128 .f32) (v2 : Vec F S128 .f32) (v3 : Vec F S128x1 .f32) (v5 : Vec F S1 .f32)
    (v9 : Vec F S64x136 .f32) : Gen.k0_pay4 v0 v2 v3 v5 v9 = chunk v0 v2 v3 v5 v9 := rfl

end Cert.Chunk

end
-- ==== Proof.Block.lean ====
/-
  What the body leaves in a block, store by store.

  The body writes its 64-by-2048 output block in sixteen stores of 128 columns each. The store at columns o … o+127
  holds the chunk computed from padded columns o … o+135 of the same 64 rows and the four parameter arrays; the
  sixteen offsets are the multiples of 128 below 2048.
-/
import proofs.«140190_j38079180046569_2_alg».proof.Proof.Gen.KernelIdeal.Frame
import proofs.«140190_j38079180046569_2_alg».proof.Proof.Chunk
import Idealize.ShloMosaic.Lib.Pipeline.Value

set_option maxRecDepth 16384

noncomputable section
namespace Cert.Block
open Idealize.ShloMosaic Idealize.ShloMosaic.TcCoe Idealize.ShloMosaic.Tactic Idealize.SL.Sem
open Cert.KernelIdeal Cert.KernelIdeal.Gen

variable {F : FTy → Type} [FloatOps F]

theorem hz1 : (![0] : Fin 1 → Nat) = fun _ => 0 := by funext a; match a with | ⟨0, _⟩ => rfl
theorem hz2 : (![0, 0] : Fin 2 → Nat) = fun _ => 0 := by funext a; match a with | ⟨0, _⟩ => rfl | ⟨1, _⟩ => rfl

/-- Output columns o … o+127 of the 64 rows of a block. -/
abbrev colRect (o : Nat) (h : o + 128 ≤ 2048) : Rect S64x2048 :=
  Rect.unit ![0, o] ![64, 128] (Rect.inb₂ (Nat.le_refl 64) h)

/-- Padded columns o … o+135 of the 64 rows of a block. -/
abbrev ldRect (o : Nat) (h : o + 136 ≤ 2056) : Rect S64x2056 :=
  Rect.unit ![0, o] S64x136.size (Rect.inb₂ (Nat.le_refl 64) h)

/-- What the body stores at columns o … o+127: the chunk of padded columns o … o+135. -/
abbrev piece (x0 : Vec F S64x2056 .f32) (x1 : Vec F S9x128 .f32) (x2 : Vec F S128 .f32) (x3 : Vec F S128x1 .f32) (x4 : Vec F S1 .f32)
    (o : Nat) (h : o + 136 ≤ 2056) (h' : o + 128 ≤ 2048) : View.Piece (Elt F) S64x2048 .f32 :=
  ⟨colRect o h', Cert.Chunk.chunk x1 x2 x3 x4 (View.ld x0 (ldRect o h))⟩

theorem pieces_eq (c : Dev nD) (i : grid0.Coords) (arg1 : Memref sig .tc .vmem S64x2056 .f32) (harg1 : arg1.IsWhole) (arg2 : Memref sig .tc .vmem S9x128 .f32) (harg2 : arg2.IsWhole) (arg3 : Memref sig .tc .vmem S128 .f32) (harg3 : arg3.IsWhole) (arg4 : Memref sig .tc .vmem S128x1 .f32) (harg4 : arg4.IsWhole) (arg5 : Memref sig .tc .vmem S1 .f32) (harg5 : arg5.IsWhole) (arg6 : Memref sig .tc .vmem S64x2048 .f32) (harg6 : arg6.IsWhole)
    (x0 : Vec F S64x2056 .f32) (x1 : Vec F S9x128 .f32) (x2 : Vec F S128 .f32) (x3 : Vec F S128x1 .f32) (x4 : Vec F S1 .f32) :
    (kernelRun0_A c i arg1 harg1 arg2 harg2 arg3 harg3 arg4 harg4 arg5 harg5 arg6 harg6 x0 x1 x2 x3 x4).1
      = [piece x0 x1 x2 x3 x4 1920 (by decide) (by decide),
      piece x0 x1 x2 x3 x4 1792 (by decide) (by decide),
      piece x0 x1 x2 x3 x4 1664 (by decide) (by decide),
      piece x0 x1 x2 x3 x4 1536 (by decide) (by decide),
      piece x0 x1 x2 x3 x4 1408 (by decide) (by decide),
      piece x0 x1 x2 x3 x4 1280 (by decide) (by decide),
      piece x0 x1 x2 x3 x4 1152 (by decide) (by decide),
      piece x0 x1 x2 x3 x4 1024 (by decide) (by decide),
      piece x0 x1 x2 x3 x4 896 (by decide) (by decide),
      piece x0 x1 x2 x3 x4 768 (by decide) (by decide),
      piece x0 x1 x2 x3 x4 640 (by decide) (by decide),
      piece x0 x1 x2 x3 x4 512 (by decide) (by decide),
      piece x0 x1 x2 x3 x4 384 (by decide) (by decide),
      piece x0 x1 x2 x3 x4 256 (by decide) (by decide),
      piece x0 x1 x2 x3 x4 128 (by decide) (by decide),
      piece x0 x1 x2 x3 x4 0 (by decide) (by decide)] := by
  unfold kernelRun0_A
  dsimp only
  sl_unfold_words
  simp only [View.readAt_eq_ld, Memref.IsWhole.read_unread, View.ld_unit_zero (S := S9x128) hz2, View.ld_unit_zero (S := S128) hz1,
    View.ld_unit_zero (S := S128x1) hz2, View.ld_unit_zero (S := S1) hz1]
  rfl

end Cert.Block
end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.ChunkAt.lean ====
/-
  One chunk read at an entry.

  Entry (r, j) of a chunk is row r·128 + j of the intermediate matrices. The window matrix there holds the nine entries
  (r, j), …, (r, j+8) of the 136 columns; the hidden layer is the rectified affine image of that window; the output is
  its contraction with the weight column, plus the bias:

      chunk[r, j] = ( Σ_d max( Σ_k cols[r, j+k] · W1[k, d] + b1[d], z ) · W2[d, 0] ) + b2[0].
-/
import proofs.«140190_j38079180046569_2_alg».proof.Proof.Chunk
import proofs.«140190_j38079180046569_2_alg».proof.Proof.LibPlainContract
import proofs.«140190_j38079180046569_2_alg».proof.Proof.LibColumn
import proofs.«140190_j38079180046569_2_alg».proof.Proof.LibLayout3
import Idealize.ShloMosaic.Lib.Pipeline.Value
import Idealize.ShloMosaic.Lib.ValueLayout
import Idealize.ShloMosaic.Lib.ValueIdx
import Idealize.ShloMosaic.PureOps.Ideal.Laws

noncomputable section

namespace Cert.Chunk

open Idealize.ShloMosaic Idealize.ShloMosaic.ValueIdx Cert.KernelIdeal

variable [Cert.KernelIdeal.Facts]
open Cert.KernelIdeal.Facts₀ Cert.KernelIdeal.Facts

section Layout
variable {F : FTy → Type} [FloatOps F]

/-- A slab from column o reads, at (·, r, j), the columns at (r, o + j). -/
theorem slab_apply (v : FVec F S64x136 .f32) (o : Nat) (h : S64x136.Slices ![0, o] S64x128) (u : Fin 1) (r : Fin 64)
    (j : Fin 128) (q : Fin 136) (hq : q.val = o + j.val) : slab v o h (ix3 u r j) = v (ix2 r q) := by
  unfold slab
  refine (shapeCast_ab_1ab_apply _ _ u r j).trans ?_
  exact slice2_axis1_apply o v h r j q hq

/-- The nine slabs as a family over the shift. -/
def slabs (v : FVec F S64x136 .f32) : Fin 9 → (S1x64x128.Idx → F .f32)
  | ⟨0, _⟩ => slab v 0 slices_S64x136_o0_0_S64x128
  | ⟨1, _⟩ => slab v 1 slices_S64x136_o0_1_S64x128
  | ⟨2, _⟩ => slab v 2 slices_S64x136_o0_2_S64x128
  | ⟨3, _⟩ => slab v 3 slices_S64x136_o0_3_S64x128
  | ⟨4, _⟩ => slab v 4 slices_S64x136_o0_4_S64x128
  | ⟨5, _⟩ => slab v 5 slices_S64x136_o0_5_S64x128
  | ⟨6, _⟩ => slab v 6 slices_S64x136_o0_6_S64x128
  | ⟨7, _⟩ => slab v 7 slices_S64x136_o0_7_S64x128
  | ⟨8, _⟩ => slab v 8 slices_S64x136_o0_8_S64x128
  | ⟨n + 9, h⟩ => absurd h (Nat.not_lt.2 (Nat.le_add_left _ _))

theorem slabs_apply (v : FVec F S64x136 .f32) (k : Fin 9) (u : Fin 1) (r : Fin 64) (j : Fin 128) (q : Fin 136)
    (hq : q.val = k.val + j.val) : slabs v k (ix3 u r j) = v (ix2 r q) := by
  match k with
  | ⟨0, _⟩ => exact slab_apply v 0 slices_S64x136_o0_0_S64x128 u r j q hq
  | ⟨1, _⟩ => exact slab_apply v 1 slices_S64x136_o0_1_S64x128 u r j q hq
  | ⟨2, _⟩ => exact slab_apply v 2 slices_S64x136_o0_2_S64x128 u r j q hq
  | ⟨3, _⟩ => exact slab_apply v 3 slices_S64x136_o0_3_S64x128 u r j q hq
  | ⟨4, _⟩ => exact slab_apply v 4 slices_S64x136_o0_4_S64x128 u r j q hq
  | ⟨5, _⟩ => exact slab_apply v 5 slices_S64x136_o0_5_S64x128 u r j q hq
  | ⟨6, _⟩ => exact slab_apply v 6 slices_S64x136_o0_6_S64x128 u r j q hq
  | ⟨7, _⟩ => exact slab_apply v 7 slices_S64x136_o0_7_S64x128 u r j q hq
  | ⟨8, _⟩ => exact slab_apply v 8 slices_S64x136_o0_8_S64x128 u r j q hq
  | ⟨n + 9, h⟩ => exact absurd h (Nat.not_lt.2 (Nat.le_add_left _ _))

/-- The stack is the family's pieces laid along the leading axis. -/
theorem stack_eq (v : FVec F S64x136 .f32) :
    stack v = concatenate S9x64x128 0 (List.ofFn fun n : Fin 9 => (⟨S1x64x128, slabs v n⟩ : (s : Shape) × (s.Idx → F .f32)))
      concatenates_S1x64x128_S1x64x128_S1x64x128_S1x64x128_S1x64x128_S1x64x128_S1x64x128_S1x64x128_S1x64x128_S9x64x128_d0 := rfl

/-- The stack reads, at (k, r, j), the columns at (r, k + j). -/
theorem stack_apply (v : FVec F S64x136 .f32) (k : Fin 9) (r : Fin 64) (j : Fin 128) (q : Fin 136)
    (hq : q.val = k.val + j.val) : stack v (ix3 k r j) = v (ix2 r q) := by
  rw [stack_eq]
  refine (concatenate_ofFn_unit_apply (t := S9x64x128) (s₁ := S1x64x128) (0 : Fin 3) (slabs v)
    concatenates_S1x64x128_S1x64x128_S1x64x128_S1x64x128_S1x64x128_S1x64x128_S1x64x128_S1x64x128_S1x64x128_S9x64x128_d0
    rfl rfl (ix3 k r j) k rfl (ix3 (0 : Fin 1) r j) ?_).trans (slabs_apply v k 0 r j q hq)
  intro b hb
  match b with
  | ⟨0, _⟩ => exact absurd rfl hb
  | ⟨1, _⟩ => rfl
  | ⟨2, _⟩ => rfl

/-- The window matrix reads, at row r·128 + j and position k, the columns at (r, k + j). -/
theorem windows_apply (v9 : Vec F S64x136 .f32) (r : Fin 64) (j : Fin 128) (k : Fin 9) (n : Fin 8192)
    (hn : n.val = r.val * 128 + j.val) (q : Fin 136) (hq : q.val = k.val + j.val) :
    windows v9 (ix2 n k) = v9 (ix2 r q) := by
  unfold windows
  refine (Cert.LibLayout3.shapeCast_abc_mc_apply _ _ r j k n hn).trans ?_
  refine (transpose_apply [1, 2, 0] _ transposes_S9x64x128_p1_2_0_S64x128x9 (ix3 r j k) (ix3 k r j) ?_).trans ?_
  · intro b
    match b with
    | ⟨0, _⟩ => rfl
    | ⟨1, _⟩ => rfl
    | ⟨2, _⟩ => rfl
  rw [shapeCast_self]
  exact stack_apply _ k r j q hq

end Layout

section AtIdeal

/-- A vector of length m = a·b cast to [a, b] reads, at (r, j), the vector at r·b + j. -/
theorem shapeCast_m_ab_apply {α : Type} {a b m : ℕ} (x : (⟨1, ![m]⟩ : Shape).Idx → α)
    (h : (⟨1, ![m]⟩ : Shape).ShapeCasts ⟨2, ![a, b]⟩) (r : Fin a) (j : Fin b) (n : Fin m) (hn : n.val = r.val * b + j.val) :
    shapeCast ⟨2, ![a, b]⟩ x h (ix2 r j) = x (ix1 n) :=
  shapeCast_apply x h _ _ (by
    rw [Shape.rowMajor_val_one, Shape.rowMajor_val_two]
    show n.val = r.val * b + j.val
    exact hn)

/-- The hidden layer at row n, unit d: the window's affine image, cut off below at the threshold. -/
theorem hidden_apply (v0 : Vec Ideal S9x128 .f32) (v2 : Vec Ideal S128 .f32) (W : FVec Ideal S8192x9 .f32)
    (n : Fin 8192) (d : Fin 128) :
    hidden v0 v2 W (ix2 n d)
      = max ((∑ k : Fin 9, W (ix2 n k) * v0 (ix2 k d)) + v2 (ix1 d)) (Ideal.ofBits .f32 0x00000000#32) := by
  unfold hidden
  rw [maximumf_apply, addf_apply, broadcast_apply]
  refine congrArg₂ max (congrArg₂ (· + ·) ?_ ?_) rfl
  · exact Cert.LibPlainContract.matmul_plain_apply 8192 9 128 none (truncf .bf16 W bitsLt_bf16_f32)
      (truncf .bf16 v0 bitsLt_bf16_f32) n d
  · refine (broadcastTo_1b_ab_apply _ _ n d).trans ?_
    exact shapeCast_a_1a_apply v2 _ 0 d

/-- The output at (r, j): row r·128 + j of the hidden layer against the weight column, plus the bias. -/
theorem outOf_apply (v3 : Vec Ideal S128x1 .f32) (v5 : Vec Ideal S1 .f32) (H : FVec Ideal S8192x128 .f32)
    (r : Fin 64) (j : Fin 128) (n : Fin 8192) (hn : n.val = r.val * 128 + j.val) :
    outOf v3 v5 H (ix2 r j) = (∑ d : Fin 128, H (ix2 n d) * v3 (ix2 d (0 : Fin 1))) + v5 (ix1 (0 : Fin 1)) := by
  unfold outOf
  refine (shapeCast_m_ab_apply _ _ r j n hn).trans ?_
  rw [addf_apply]
  refine congrArg₂ (· + ·) ?_ ?_
  · refine (Cert.LibColumn.laneSum_apply _ _ _ _ n).trans ?_
    refine Finset.sum_congr rfl fun d _ => ?_
    rw [mulf_apply]
    refine congrArg (H (ix2 n d) * ·) ?_
    refine (broadcastTo_1b_ab_apply _ _ n d).trans ?_
    refine (shapeCast_a_1a_apply _ _ 0 d).trans ?_
    exact Cert.LibColumn.shapeCast_a1_a_apply v3 _ d
  · exact broadcastTo_apply v5 broadcasts_S1_S8192 (ix1 n) (ix1 (0 : Fin 1)) (fun a => by
      match a with
      | ⟨0, _⟩ => rfl)

/-- A chunk at (r, j): the nine columns from j of row r through the two layers. -/
theorem chunk_apply (v0 : Vec Ideal S9x128 .f32) (v2 : Vec Ideal S128 .f32) (v3 : Vec Ideal S128x1 .f32)
    (v5 : Vec Ideal S1 .f32) (v9 : Vec Ideal S64x136 .f32) (r : Fin 64) (j : Fin 128) :
    chunk v0 v2 v3 v5 v9 (ix2 r j)
      = (∑ d : Fin 128, max ((∑ k : Fin 9, v9 (ix2 r ⟨j.val + k.val, by have := j.isLt; have := k.isLt; omega⟩) * v0 (ix2 k d))
          + v2 (ix1 d)) (Ideal.ofBits .f32 0x00000000#32) * v3 (ix2 d (0 : Fin 1))) + v5 (ix1 (0 : Fin 1)) := by
  have hn : r.val * 128 + j.val < 8192 := by have := r.isLt; have := j.isLt; omega
  unfold chunk
  rw [outOf_apply v3 v5 _ r j ⟨r.val * 128 + j.val, hn⟩ rfl]
  refine congrArg₂ (· + ·) (Finset.sum_congr rfl fun d _ => ?_) rfl
  rw [hidden_apply]
  refine congrArg (· * v3 (ix2 d (0 : Fin 1))) ?_
  refine congrArg₂ max (congrArg₂ (· + ·) (Finset.sum_congr rfl fun k _ => ?_) rfl) rfl
  rw [windows_apply v9 r j k ⟨r.val * 128 + j.val, hn⟩ rfl
    ⟨j.val + k.val, by have := j.isLt; have := k.isLt; omega⟩ (Nat.add_comm _ _)]

end AtIdeal

end Cert.Chunk

end
-- ==== Proof.Spec.lean ====
/-
  The function both programs compute, entry by entry, on the extended reals.

  A row of the signal, padded with four entries in front and four behind, has 2056 entries. Output column c of that
  row looks at the nine padded entries c, c+1, …, c+8 (a window centred on the unpadded entry c), sends them through a
  9-to-128 affine map and a rectifier, and contracts the 128 results with a weight column, plus a bias:

      out[c] = ( Σ_d  max( Σ_k row[c+k] · W1[k,d] + b1[d] , z ) · W2[d,0] ) + b2[0].

  The array form applies this to every row (b, h) of an [8, 64, 2056] padded array. The rectifier's threshold z and
  the padded array are parameters: both programs build them by the same operations, so they are never evaluated.
-/
import Idealize.ShloMosaic.PureOps.Ideal
import Idealize.ShloMosaic.Lib.ValueIdx

noncomputable section

namespace Cert.Spec

open Idealize.ShloMosaic Idealize.ShloMosaic.ValueIdx

/-- Output column `c` of one padded row: the nine-entry window at `c` through the two layers. -/
def rowOut (z : EReal) (row : Fin 2056 → EReal) (w1 : (⟨2, ![9, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (c : Fin 2048) : EReal :=
  (∑ d : Fin 128, max ((∑ k : Fin 9, row ⟨c.val + k.val, by have := c.isLt; have := k.isLt; omega⟩ * w1 (ix2 k d))
      + b1 (ix1 d)) z * w2 (ix2 d (0 : Fin 1))) + b2 (ix1 (0 : Fin 1))

/-- The whole result: entry (b, h, c) is output column `c` of row (b, h) of the padded array `P`. -/
def G (z : EReal) (P : (⟨3, ![8, 64, 2056]⟩ : Shape).Idx → EReal) (w1 : (⟨2, ![9, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨3, ![8, 64, 2048]⟩ : Shape).Idx → EReal :=
  fun i => rowOut z (fun c' => P (ix3 (i 0 : Fin 8) (i 1 : Fin 64) c')) w1 b1 w2 b2 (i 2 : Fin 2048)

theorem G_apply (z : EReal) (P : (⟨3, ![8, 64, 2056]⟩ : Shape).Idx → EReal) (w1 : (⟨2, ![9, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (b : Fin 8) (h : Fin 64) (c : Fin 2048) :
    G z P w1 b1 w2 b2 (ix3 b h c) = rowOut z (fun c' => P (ix3 b h c')) w1 b1 w2 b2 c := rfl

end Cert.Spec

end
-- ==== Proof.BlockAt.lean ====
/-
  The body's output block as one function of its input blocks.

  Entry (r, c) of the output block lies in the store at columns 128·⌊c/128⌋ …, whose chunk reads padded columns
  c, …, c+8 of row r. So every store restricts one function of the whole block: output column c of padded row r.
-/
import proofs.«140190_j38079180046569_2_alg».proof.Proof.Gen.KernelIdeal.Frame
import proofs.«140190_j38079180046569_2_alg».proof.Proof.Block
import proofs.«140190_j38079180046569_2_alg».proof.Proof.ChunkAt
import proofs.«140190_j38079180046569_2_alg».proof.Proof.Spec

set_option maxRecDepth 16384

noncomputable section
namespace Cert.Block
open Idealize.ShloMosaic Idealize.ShloMosaic.TcCoe Idealize.ShloMosaic.ValueIdx Idealize.SL.Sem
open Cert.KernelIdeal Cert.KernelIdeal.Gen

/-- The rectifier's threshold as the body spells it. -/
abbrev z : EReal := Ideal.ofBits .f32 0x00000000#32

/-- Entry (r, c) of the output block: output column c of row r of the padded block. -/
def blockG (x0 : Vec Ideal S64x2056 .f32) (x1 : Vec Ideal S9x128 .f32) (x2 : Vec Ideal S128 .f32) (x3 : Vec Ideal S128x1 .f32)
    (x4 : Vec Ideal S1 .f32) : S64x2048.Idx → EReal :=
  fun y => Cert.Spec.rowOut z (fun c' => x0 (ix2 (y 0 : Fin 64) c')) x1 x2 x3 x4 (y 1 : Fin 2048)

/-- The store at columns o … o+127 holds the block function at those columns. -/
theorem piece_restricts (x0 : Vec Ideal S64x2056 .f32) (x1 : Vec Ideal S9x128 .f32) (x2 : Vec Ideal S128 .f32)
    (x3 : Vec Ideal S128x1 .f32) (x4 : Vec Ideal S1 .f32) (o : Nat) (h : o + 136 ≤ 2056) (h' : o + 128 ≤ 2048)
    (x : (piece x0 x1 x2 x3 x4 o h h').1.shape.Idx) :
    (piece x0 x1 x2 x3 x4 o h h').2 x = blockG x0 x1 x2 x3 x4 ((piece x0 x1 x2 x3 x4 o h h').1.emb x) := by
  obtain ⟨r, j, rfl⟩ : ∃ (r : Fin 64) (j : Fin 128), x = ix2 r j := ⟨x 0, x 1, eq_ix2 x⟩
  refine (Cert.Chunk.chunk_apply x1 x2 x3 x4 (View.ld x0 (ldRect o h)) r j).trans ?_
  unfold blockG Cert.Spec.rowOut
  refine congrArg₂ (· + ·) (Finset.sum_congr rfl fun d _ => congrArg (· * x3 (ix2 d (0 : Fin 1)))
    (congrArg₂ max (congrArg₂ (· + ·) (Finset.sum_congr rfl fun k _ => congrArg (· * x1 (ix2 k d)) ?_) rfl) rfl)) rfl
  refine congrArg x0 (funext fun a => Fin.ext ?_)
  match a with
  | ⟨0, _⟩ => show 0 + 1 * r.val = 0 + 1 * r.val; rfl
  | ⟨1, _⟩ => show o + 1 * (j.val + k.val) = (o + 1 * j.val) + k.val; omega

/-- What the run leaves in the output's staging buffer is the block function of the input blocks. -/
theorem out_eq (c : Dev nD) (i : grid0.Coords) (arg1 : Memref sig .tc .vmem S64x2056 .f32) (harg1 : arg1.IsWhole) (arg2 : Memref sig .tc .vmem S9x128 .f32) (harg2 : arg2.IsWhole) (arg3 : Memref sig .tc .vmem S128 .f32) (harg3 : arg3.IsWhole) (arg4 : Memref sig .tc .vmem S128x1 .f32) (harg4 : arg4.IsWhole) (arg5 : Memref sig .tc .vmem S1 .f32) (harg5 : arg5.IsWhole) (arg6 : Memref sig .tc .vmem S64x2048 .f32) (harg6 : arg6.IsWhole)
    (x0 : Vec Ideal S64x2056 .f32) (x1 : Vec Ideal S9x128 .f32) (x2 : Vec Ideal S128 .f32) (x3 : Vec Ideal S128x1 .f32) (x4 : Vec Ideal S1 .f32) :
    out0_A_5 c i arg1 harg1 arg2 harg2 arg3 harg3 arg4 harg4 arg5 harg5 arg6 harg6 x0 x1 x2 x3 x4 = blockG x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces (blockG x0 x1 x2 x3 x4) _ ?_ y (cover0_A_5 c i arg1 harg1 arg2 harg2 arg3 harg3 arg4 harg4 arg5 harg5 arg6 harg6 x0 x1 x2 x3 x4 y)
  rw [pieces_eq]
  intro p hp x
  simp only [List.mem_cons, List.mem_nil_iff, or_false] at hp
  rcases hp with rfl | rfl | rfl | rfl | rfl | rfl | rfl | rfl | rfl | rfl | rfl | rfl | rfl | rfl | rfl | rfl
  · exact piece_restricts x0 x1 x2 x3 x4 1920 (by decide) (by decide) x
  · exact piece_restricts x0 x1 x2 x3 x4 1792 (by decide) (by decide) x
  · exact piece_restricts x0 x1 x2 x3 x4 1664 (by decide) (by decide) x
  · exact piece_restricts x0 x1 x2 x3 x4 1536 (by decide) (by decide) x
  · exact piece_restricts x0 x1 x2 x3 x4 1408 (by decide) (by decide) x
  · exact piece_restricts x0 x1 x2 x3 x4 1280 (by decide) (by decide) x
  · exact piece_restricts x0 x1 x2 x3 x4 1152 (by decide) (by decide) x
  · exact piece_restricts x0 x1 x2 x3 x4 1024 (by decide) (by decide) x
  · exact piece_restricts x0 x1 x2 x3 x4 896 (by decide) (by decide) x
  · exact piece_restricts x0 x1 x2 x3 x4 768 (by decide) (by decide) x
  · exact piece_restricts x0 x1 x2 x3 x4 640 (by decide) (by decide) x
  · exact piece_restricts x0 x1 x2 x3 x4 512 (by decide) (by decide) x
  · exact piece_restricts x0 x1 x2 x3 x4 384 (by decide) (by decide) x
  · exact piece_restricts x0 x1 x2 x3 x4 256 (by decide) (by decide) x
  · exact piece_restricts x0 x1 x2 x3 x4 128 (by decide) (by decide) x
  · exact piece_restricts x0 x1 x2 x3 x4 0 (by decide) (by decide) x

end Cert.Block
end
-- ==== Proof.KernelValue.lean ====
/-
  The kernel's result array.

  Grid point t works on rows 64·t … 64·t + 63: its input block of the padded array is those rows (all 2056 columns),
  the four parameter arrays are passed whole, and its output block is the same rows of the [512, 2048] result. So
  what point t writes back is the restriction to those rows of ONE function of the arrays the region finds: entry
  (R, c) is output column c of padded row R. The eight blocks tile the result, so the result is that function.
-/
import proofs.«140190_j38079180046569_2_alg».proof.Proof.Gen.KernelIdeal.Frame
import proofs.«140190_j38079180046569_2_alg».proof.Proof.BlockAt
import Idealize.ShloMosaic.Lib.Pipeline.Value
import Idealize.ShloMosaic.Lib.StableHlo.Run

set_option maxRecDepth 16384

noncomputable section
namespace Cert.KernelValue

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.Block

variable (m : (ℓ : Loc nD τ sig) → Buf (Elt Ideal) ℓ) (ρ : Dev nD → PrngReg)

/-- Entry (R, c) of the [512, 2048] result: output column c of row R of the padded array. -/
def arrG (P : S512x2056.Idx → EReal) (x1 : S9x128.Idx → EReal) (x2 : S128.Idx → EReal) (x3 : S128x1.Idx → EReal)
    (x4 : S1.Idx → EReal) : S512x2048.Idx → EReal :=
  fun i => Cert.Spec.rowOut z (fun c' => P (ix2 (i 0 : Fin 512) c')) x1 x2 x3 x4 (i 1 : Fin 2048)

/-- The index maps over the grid: the padded array and the result move by one block of rows per point, the parameter
    arrays stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0 :=
  (by decide +kernel : ∀ t : Fin grid0.N, _)

theorem t_lt (t : Fin cfg0.N) : t.val < 8 := lt_of_lt_of_eq t.isLt N_0

/-- The padded array's block at point t is its rows 64·t …. -/
theorem iblk0_apply (c : Dev nD) (t : Fin cfg0.N) (r : Fin 64) (q : Fin 2056) (R : Fin 512) (hR : R.val = t.val * 64 + r.val) :
    (iblk m c 0 t : S64x2056.Idx → EReal) (ix2 r q) = (V m c main_v1 : S512x2056.Idx → EReal) (ix2 R q) := by
  obtain ⟨e0, e1, -⟩ := idx_facts t
  show V m c main_v1 (((cfg0.win 0).blk t).view.emb (ix2 r q)) = V m c main_v1 (ix2 R q)
  refine congrArg (V m c main_v1) (funext fun a => Fin.ext ?_)
  match a with
  | ⟨0, _⟩ => show win0_0.index t (0 : Fin 2) * 64 + 1 * r.val = R.val; omega
  | ⟨1, _⟩ => show win0_0.index t (1 : Fin 2) * 2056 + 1 * q.val = q.val; omega

/-- Each parameter array's block is the whole array. -/
theorem iblk1_eq (c : Dev nD) (t : Fin cfg0.N) : (iblk m c 1 t : S9x128.Idx → EReal) = V m c main_arg1 := by
  obtain ⟨-, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 9 + 1 * (j 0).val = (j 0).val; omega
  | ⟨1, _⟩ => show win0_1.index t (1 : Fin 2) * 128 + 1 * (j 1).val = (j 1).val; omega

theorem iblk2_eq (c : Dev nD) (t : Fin cfg0.N) : (iblk m c 2 t : S128.Idx → EReal) = V m c main_arg2 := by
  obtain ⟨-, -, -, -, e0, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 1) * 128 + 1 * (j 0).val = (j 0).val; omega

theorem iblk3_eq (c : Dev nD) (t : Fin cfg0.N) : (iblk m c 3 t : S128x1.Idx → EReal) = V m c main_arg3 := by
  obtain ⟨-, -, -, -, -, e0, e1, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 128 + 1 * (j 0).val = (j 0).val; omega
  | ⟨1, _⟩ => show win0_3.index t (1 : Fin 2) * 1 + 1 * (j 1).val = (j 1).val; omega

theorem iblk4_eq (c : Dev nD) (t : Fin cfg0.N) : (iblk m c 4 t : S1.Idx → EReal) = V m c main_arg4 := by
  obtain ⟨-, -, -, -, -, -, -, e0, -⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 1) * 1 + 1 * (j 0).val = (j 0).val; omega

/-- What point t writes back is rows 64·t … of the result function of the arrays the region finds. -/
theorem flushed_eq (c : Dev nD) (t : Fin cfg0.N) :
    (dats m 0 c).flushed 5 t = ((cfg0.win 5).blk t).view.read (Elt Ideal)
      (arrG (V m c main_v1) (V m c main_arg1) (V m c main_arg2) (V m c main_arg3) (V m c main_arg4)) := by
  show (cfg0.win 5).cut (grid0.coords t) ((dats m 0 c).after 5 t) = _
  rw [after0_5]
  have hout : outsAt0 m c t = blockG (iblk m c 0 t) (iblk m c 1 t) (iblk m c 2 t) (iblk m c 3 t) (iblk m c 4 t) :=
    Cert.Block.out_eq c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t)
  rw [hout]
  obtain ⟨-, -, -, -, -, -, -, -, e0, e1⟩ := idx_facts t
  have ht := t_lt t
  funext y
  obtain ⟨r, cc, rfl⟩ : ∃ (r : Fin 64) (cc : Fin 2048), y = ix2 r cc := ⟨y 0, y 1, eq_ix2 y⟩
  have hR : t.val * 64 + r.val < 512 := by have := r.isLt; omega
  have hemb : ((cfg0.win 5).blk t).view.emb (ix2 r cc) = ix2 (⟨t.val * 64 + r.val, hR⟩ : Fin 512) cc :=
    funext fun a => Fin.ext (by
      match a with
      | ⟨0, _⟩ => show win0_5.index t (0 : Fin 2) * 64 + 1 * r.val = t.val * 64 + r.val; omega
      | ⟨1, _⟩ => show win0_5.index t (1 : Fin 2) * 2048 + 1 * cc.val = cc.val; omega)
  show blockG (iblk m c 0 t) (iblk m c 1 t) (iblk m c 2 t) (iblk m c 3 t) (iblk m c 4 t) (ix2 r cc)
    = arrG (V m c main_v1) (V m c main_arg1) (V m c main_arg2) (V m c main_arg3) (V m c main_arg4)
        (((cfg0.win 5).blk t).view.emb (ix2 r cc))
  rw [hemb]
  unfold blockG arrG Cert.Spec.rowOut
  refine congrArg₂ (· + ·) (Finset.sum_congr rfl fun d _ => congrArg₂ (· * ·) (congrArg₂ max (congrArg₂ (· + ·)
    (Finset.sum_congr rfl fun k _ => congrArg₂ (· * ·) ?_ (congrFun (iblk1_eq m c t) (ix2 k d)))
    (congrFun (iblk2_eq m c t) (ix1 d))) rfl) (congrFun (iblk3_eq m c t) (ix2 d (0 : Fin 1))))
    (congrFun (iblk4_eq m c t) (ix1 (0 : Fin 1)))
  exact iblk0_apply m c t r _ ⟨t.val * 64 + r.val, hR⟩ rfl

/-- An index of the result is in point t's block iff its row is among rows 64·t …. -/
theorem mem_blk (t : Fin cfg0.N) (i : S512x2048.Idx) :
    i ∈ ((cfg0.win 5).blk t).view.set ↔ ∀ a : Fin 2, win0_5.index t a * S64x2048.size a ≤ (i a).val
      ∧ (i a).val < win0_5.index t a * S64x2048.size a + S64x2048.size a := by
  show i ∈ ((View.whole main_v2).slice (win0_5.rect t)).set ↔ _
  rw [View.set_slice_whole, Rect.mem_set_unit]
  exact Iff.rfl

/-- Every entry of the result is in some point's block: row R in the block of point R / 64. -/
theorem cover (i : S512x2048.Idx) : ∃ t : Fin cfg0.N, (cfg0.win 5).flush t = true ∧ i ∈ ((cfg0.win 5).blk t).view.set := by
  have h0 : (i 0).val < 512 := (i 0).isLt
  have h1 : (i 1).val < 2048 := (i 1).isLt
  have hN : (i 0).val / 64 < cfg0.N := lt_of_lt_of_eq (show (i 0).val / 64 < 8 by omega) N_0.symm
  refine ⟨⟨(i 0).val / 64, hN⟩, flush0_5 _, ?_⟩
  rw [mem_blk]
  obtain ⟨-, -, -, -, -, -, -, -, e0, e1⟩ := idx_facts ⟨(i 0).val / 64, hN⟩
  intro a
  match a with
  | ⟨0, _⟩ =>
    show win0_5.index ⟨(i 0).val / 64, hN⟩ (0 : Fin 2) * 64 ≤ (i 0).val
      ∧ (i 0).val < win0_5.index ⟨(i 0).val / 64, hN⟩ (0 : Fin 2) * 64 + 64
    rw [e0]; show (i 0).val / 64 * 64 ≤ (i 0).val ∧ (i 0).val < (i 0).val / 64 * 64 + 64; omega
  | ⟨1, _⟩ =>
    show win0_5.index ⟨(i 0).val / 64, hN⟩ (1 : Fin 2) * 2048 ≤ (i 1).val
      ∧ (i 1).val < win0_5.index ⟨(i 0).val / 64, hN⟩ (1 : Fin 2) * 2048 + 2048
    rw [e1]; omega

/-- The result array after the run is the result function of the arrays the region finds. -/
theorem final (c : Dev nD) : (dats m 0 c).arrAt 5 cfg0.N
    = arrG (V m c main_v1) (V m c main_arg1) (V m c main_arg2) (V m c main_arg3) (V m c main_arg4) :=
  (dats m 0 c).arrAt_eq_of_cover 5 _ (fun t _ => flushed_eq m c t) cover

/-! ## The host operations around the region -/

/-- The padded array the region finds: the argument with its two leading axes merged, padded along the last axis. -/
theorem V_v1 (c : Dev nD) : (V m c main_v1 : S512x2056.Idx → EReal)
    = pad S512x2056 ![0, 4] ![0, 4] ![0, 0]
        (shapeCast S512x2048 (m ((c : Thread nD τ).loc main_arg0)) shapeCasts_S8x64x2048_S512x2048)
        (sitofp (F := Ideal) .f32 (constantI S_ 32 0#32)) pads_S512x2048_S512x2056_000_440 h_S_ := by
  dsimp only [Gen.V, Gen.V0]
  simp only [Gen.hostOps0, Gen.hostOps0_1, List.flatten_cons, List.flatten_nil, List.append_nil, List.cons_append,
    List.nil_append]
  after_results
  rfl

/-- The kernel's result as a function of the argument arrays: the result function of the padded array, its rows
    split back into the two leading axes. -/
def kernelOut (x0 : S8x64x2048.Idx → EReal) (x1 : S9x128.Idx → EReal) (x2 : S128.Idx → EReal) (x3 : S128x1.Idx → EReal)
    (x4 : S1.Idx → EReal) : S8x64x2048.Idx → EReal :=
  shapeCast S8x64x2048 (arrG (pad S512x2056 ![0, 4] ![0, 4] ![0, 0] (shapeCast S512x2048 x0 shapeCasts_S8x64x2048_S512x2048)
    (sitofp (F := Ideal) .f32 (constantI S_ 32 0#32)) pads_S512x2048_S512x2056_000_440 h_S_) x1 x2 x3 x4)
    shapeCasts_S512x2048_S8x64x2048

/-- What the reshape after the region leaves in the program's result buffer. -/
theorem tail_v3 (c : Dev nD) : Pipeline.afterTail₀ cfgs (dats m) 0 (V0 m) [hostOps1] c main_v3
    = kernelOut (m ((c : Thread nD τ).loc main_arg0)) (m ((c : Thread nD τ).loc main_arg1))
        (m ((c : Thread nD τ).loc main_arg2)) (m ((c : Thread nD τ).loc main_arg3)) (m ((c : Thread nD τ).loc main_arg4)) := by
  unfold Pipeline.afterTail₀
  show StableHlo.after hostOps1 _ (Proc.devRef .tc main_v3) = _
  after_results
  rw [(Pipeline.withArrays_arr spec0 launch0.win.arr_inj c _ _ 5).trans (final m c)]
  rw [V_v1, V_main_arg1, V_main_arg2, V_main_arg3, V_main_arg4]
  rfl

/-! ## The run, read -/

/-- Every weakly fair execution of the kernel's program terminates with the result buffer at `kernelOut` of the
    argument arrays and the arguments unchanged. -/
theorem run : θ_run defs (onTc (τ := τ) (main (F := Ideal))) ⟨m, fun _ => 0, ρ⟩ fun r => ∀ c : Dev nD,
      r.2.mem ((c.tc : Thread nD τ).loc main_v3) = kernelOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelValue
end
-- ==== Proof.RefValue.lean ====
/-
  The reference program's value is the specification function.

  The reference pads each row of the signal, gathers for every output column c the nine padded entries c, …, c+8,
  contracts them with a 9-by-128 weight matrix, adds a bias, rectifies, contracts the 128 results with a weight
  column, adds a bias and drops the unit axis. Read at one index (b, h, c), operation by operation, that is the
  specification's entry: the only operation whose source element depends on data is the gather, and its start
  indices are the numbers c + k, which are never negative and never past the end of the padded row, so neither the
  normalisation of negative indices nor the clamp changes them.
-/
import proofs.«140190_j38079180046569_2_alg».proof.Proof.Gen.ReferenceIdeal.Read
import proofs.«140190_j38079180046569_2_alg».proof.Proof.Spec
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Idealize.ShloMosaic.StableHlo
open Cert.ReferenceIdeal Cert.ReferenceIdeal.Gen Cert.ReferenceIdeal.Read

/-! ## The gather at an index -/

/-- The gather read at one result index: result entry (b, h, c, k) is the operand's entry (b, h, p), where p is the
    start index stored at (c, k, 0), read as a signed integer and clamped into [0, 2055]. The first two operand
    coordinates are the result's two offset coordinates (their slice starts are 0: only axis 2 is in the start
    index map); axis 2 is collapsed, so its offset is 0 and its coordinate is the clamped start index alone. -/
theorem gather_apply {α : Type} (x : S8x64x2056.Idx → α) (idx : IVec S2048x9x1 32)
    (b : Fin 8) (h : Fin 64) (c : Fin 2048) (k : Fin 9) :
    Host.gather gather_S8x64x2056_S2048x9x1_S8x64x2048x9_01_2_n_n_2_2_8641 x idx (ix4 b h c k)
      = x (ix3 b h ⟨min (idx (ix3 c k (0 : Fin 1))).toInt.toNat 2055, by omega⟩) := by
  unfold Host.gather
  congr 1
  funext a
  refine Fin.ext ?_
  match a with
  | ⟨0, _⟩ =>
    show GatherDims.start gather_S8x64x2056_S2048x9x1_S8x64x2048x9_01_2_n_n_2_2_8641 (ix4 b h c k) idx 0 + GatherDims.batchCoord gather_S8x64x2056_S2048x9x1_S8x64x2048x9_01_2_n_n_2_2_8641 (ix4 b h c k) 0
      + GatherDims.offCoord gather_S8x64x2056_S2048x9x1_S8x64x2048x9_01_2_n_n_2_2_8641 (ix4 b h c k) 0 = b.val
    rw [GatherDims.batchCoord_eq_zero _ _ _ List.not_mem_nil]
    unfold GatherDims.start
    rw [dif_neg (show ¬ (0 : Fin S8x64x2056.rank) ∈ (gather_S8x64x2056_S2048x9x1_S8x64x2048x9_01_2_n_n_2_2_8641).startIndexMap by decide)]
    unfold GatherDims.offCoord
    rw [dif_pos (show (0 : Fin S8x64x2056.rank) ∈ (gather_S8x64x2056_S2048x9x1_S8x64x2048x9_01_2_n_n_2_2_8641).sKept by decide), Nat.zero_add]
    rfl
  | ⟨1, _⟩ =>
    show GatherDims.start gather_S8x64x2056_S2048x9x1_S8x64x2048x9_01_2_n_n_2_2_8641 (ix4 b h c k) idx 1 + GatherDims.batchCoord gather_S8x64x2056_S2048x9x1_S8x64x2048x9_01_2_n_n_2_2_8641 (ix4 b h c k) 1
      + GatherDims.offCoord gather_S8x64x2056_S2048x9x1_S8x64x2048x9_01_2_n_n_2_2_8641 (ix4 b h c k) 1 = h.val
    rw [GatherDims.batchCoord_eq_zero _ _ _ List.not_mem_nil]
    unfold GatherDims.start
    rw [dif_neg (show ¬ (1 : Fin S8x64x2056.rank) ∈ (gather_S8x64x2056_S2048x9x1_S8x64x2048x9_01_2_n_n_2_2_8641).startIndexMap by decide)]
    unfold GatherDims.offCoord
    rw [dif_pos (show (1 : Fin S8x64x2056.rank) ∈ (gather_S8x64x2056_S2048x9x1_S8x64x2048x9_01_2_n_n_2_2_8641).sKept by decide), Nat.zero_add]
    rfl
  | ⟨2, _⟩ =>
    show GatherDims.start gather_S8x64x2056_S2048x9x1_S8x64x2048x9_01_2_n_n_2_2_8641 (ix4 b h c k) idx 2 + GatherDims.batchCoord gather_S8x64x2056_S2048x9x1_S8x64x2048x9_01_2_n_n_2_2_8641 (ix4 b h c k) 2
      + GatherDims.offCoord gather_S8x64x2056_S2048x9x1_S8x64x2048x9_01_2_n_n_2_2_8641 (ix4 b h c k) 2 = min (idx (ix3 c k (0 : Fin 1))).toInt.toNat 2055
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (2 : Fin S8x64x2056.rank) ∈ (gather_S8x64x2056_S2048x9x1_S8x64x2048x9_01_2_n_n_2_2_8641).startIndexMap from List.mem_singleton.mpr rfl)]
    have hsi : GatherDims.siIdx gather_S8x64x2056_S2048x9x1_S8x64x2048x9_01_2_n_n_2_2_8641 (ix4 b h c k)
        ⟨List.idxOf (2 : Fin S8x64x2056.rank) (gather_S8x64x2056_S2048x9x1_S8x64x2048x9_01_2_n_n_2_2_8641).startIndexMap,
          List.idxOf_lt_length_iff.2 (List.mem_singleton.mpr rfl)⟩ = ix3 c k (0 : Fin 1) := by
      funext e; refine Fin.ext ?_
      match e with
      | ⟨0, _⟩ => rfl
      | ⟨1, _⟩ => rfl
      | ⟨2, _⟩ => rfl
    rw [hsi]
    rfl

/-! ## The start indices -/

/-- A natural number below 2056, as a 32-bit word, reads back as itself. -/
theorem word_toNat (n : Nat) (hn : n < 2056) : (BitVec.ofNat 32 n).toNat = n := by
  rw [BitVec.toNat_ofNat]
  exact Nat.mod_eq_of_lt (by omega)

/-- Read as a signed integer, that word is the number itself: it is far below 2^31. -/
theorem word_toInt (n : Nat) (hn : n < 2056) : (BitVec.ofNat 32 n).toInt = (n : Int) := by
  rw [BitVec.toInt_eq_toNat_cond, word_toNat n hn, if_pos (by omega)]

/-- The index normalisation "if p < 0 then p + 2056 else p" leaves a word p = n with 0 ≤ n < 2056 unchanged. -/
theorem word_select (n : Nat) (hn : n < 2056) :
    Scalar.select (IntOp.cmpi .slt (BitVec.ofNat 32 n) 0#32) (IntOp.addi (BitVec.ofNat 32 n) 2056#32) (BitVec.ofNat 32 n)
      = BitVec.ofNat 32 n := by
  have hs : (BitVec.ofNat 32 n).slt 0#32 = false := by
    unfold BitVec.slt
    rw [word_toInt n hn]
    exact decide_eq_false (by simp)
  have hc : IntOp.cmpi .slt (BitVec.ofNat 32 n) 0#32 = 0#1 := by
    show BitVec.ofBool ((BitVec.ofNat 32 n).slt 0#32) = 0#1
    rw [hs]; rfl
  rw [hc]
  exact select_zero _ _

/-- The clamp of the gather is the identity on such a word: as a signed integer it is n, and n ≤ 2055. -/
theorem word_clamp (n : Nat) (hn : n < 2056) : min (BitVec.ofNat 32 n).toInt.toNat 2055 = n := by
  rw [word_toInt n hn, Int.toNat_natCast]
  omega

/-- Entry (c, k) of the table of window positions: the row number plus the position in the window, as a 32-bit word. -/
theorem window_index (c : Fin 2048) (k : Fin 9) :
    val_main_v9 (F := Ideal) (ix2 c k) = BitVec.ofNat 32 (c.val + k.val) := by
  rw [val_main_v9_apply, val_main_v7_apply, val_main_v4_apply, val_main_v2_apply, val_main_v1_apply, val_main_v3_apply,
    val_main_c_0_apply, val_main_v8_apply, val_main_v6_apply, val_main_v5_apply]
  show IntOp.addi (IntOp.muli (BitVec.ofNat 32 c.val) 1#32) (BitVec.ofNat 32 k.val) = _
  unfold IntOp.addi IntOp.muli
  rw [BitVec.mul_one, ← BitVec.ofNat_add]

/-- The start index the gather reads for result entry (·, ·, c, k): the word c + k (never negative, so the
    normalisation of negative indices does nothing). -/
theorem start_index (c : Fin 2048) (k : Fin 9) :
    val_main_v15 (F := Ideal) (ix3 c k (0 : Fin 1)) = BitVec.ofNat 32 (c.val + k.val) := by
  have e15 : idx_main_v15 (ix3 c k (0 : Fin 1)) = ix2 c k :=
    funext fun a => Fin.ext (by match a with | ⟨0, _⟩ => rfl | ⟨1, _⟩ => rfl)
  rw [val_main_v15_apply, e15, val_main_v14_apply, val_main_v11_apply, val_main_v13_apply, val_main_v12_apply,
    val_main_c_2_apply, val_main_v10_apply, val_main_c_1_apply, window_index]
  exact word_select _ (by have := c.isLt; have := k.isLt; omega)

/-- THE GATHER: window entry k of output column c of row (b, h) is entry c + k of that row of the padded array. -/
theorem windows_apply (x0 : (⟨S8x64x2048, .f32⟩ : BufTy).Contents (Elt Ideal)) (b : Fin 8) (h : Fin 64) (c : Fin 2048) (k : Fin 9) :
    val_main_v16 (F := Ideal) x0 (ix4 b h c k)
      = val_main_v0 (F := Ideal) x0 (ix3 b h ⟨c.val + k.val, by have := c.isLt; have := k.isLt; omega⟩) := by
  unfold val_main_v16
  rw [gather_apply]
  congr 1
  funext a
  refine Fin.ext ?_
  match a with
  | ⟨0, _⟩ => rfl
  | ⟨1, _⟩ => rfl
  | ⟨2, _⟩ =>
    show min (val_main_v15 (F := Ideal) (ix3 c k (0 : Fin 1))).toInt.toNat 2055 = c.val + k.val
    rw [start_index]
    exact word_clamp _ (by have := c.isLt; have := k.isLt; omega)

/-! ## The two layers at an index -/

/-- The rectified hidden unit d of output column c of row (b, h): the window through the first affine map,
    then the maximum with the threshold. -/
theorem hidden_apply (x0 : (⟨S8x64x2048, .f32⟩ : BufTy).Contents (Elt Ideal)) (x1 : (⟨S9x128, .f32⟩ : BufTy).Contents (Elt Ideal))
    (x2 : (⟨S128, .f32⟩ : BufTy).Contents (Elt Ideal)) (b : Fin 8) (h : Fin 64) (c : Fin 2048) (d : Fin 128) :
    val_main_v21 (F := Ideal) x0 x1 x2 (ix4 b h c d)
      = max ((∑ k : Fin 9, val_main_v0 (F := Ideal) x0 (ix3 b h ⟨c.val + k.val, by have := c.isLt; have := k.isLt; omega⟩)
            * x1 (ix2 k d)) + x2 (ix1 d)) (Ideal.ofBits .f32 0x00000000#32) := by
  rw [val_main_v21_apply, val_main_v20_apply, val_main_v17_apply, val_main_v19_apply, val_main_v18_apply,
    val_main_call1_v0_apply, val_main_call1_cst_apply, Ideal.maximumf_def, Ideal.addf_def, Ideal.ofBits_def]
  refine congrArg₂ max (congrArg₂ (· + ·) (Finset.sum_congr rfl fun k _ => ?_) ?_) rfl
  · have el : lidx_main_v17 (ix4 b h c d) k = ix4 b h c k :=
      funext fun a => Fin.ext (by match a with | ⟨0, _⟩ => rfl | ⟨1, _⟩ => rfl | ⟨2, _⟩ => rfl | ⟨3, _⟩ => rfl)
    have er : ridx_main_v17 (ix4 b h c d) k = ix2 k d :=
      funext fun a => Fin.ext (by match a with | ⟨0, _⟩ => rfl | ⟨1, _⟩ => rfl)
    rw [el, er, windows_apply]
  · exact congrArg x2 (funext fun a => Fin.ext (by match a with | ⟨0, _⟩ => rfl))

/-- The reference's result is the specification function of the padded array and the four parameter arrays. -/
theorem ref_eq (x0 : (⟨S8x64x2048, .f32⟩ : BufTy).Contents (Elt Ideal)) (x1 : (⟨S9x128, .f32⟩ : BufTy).Contents (Elt Ideal)) (x2 : (⟨S128, .f32⟩ : BufTy).Contents (Elt Ideal)) (x3 : (⟨S128x1, .f32⟩ : BufTy).Contents (Elt Ideal)) (x4 : (⟨S1, .f32⟩ : BufTy).Contents (Elt Ideal)) :
    val_main_v26 (F := Ideal) x0 x1 x2 x3 x4
      = Cert.Spec.G (Ideal.ofBits .f32 0x00000000#32) (val_main_v0 (F := Ideal) x0) x1 x2 x3 x4 := by
  funext i
  obtain ⟨b, h, c, rfl⟩ : ∃ (b : Fin 8) (h : Fin 64) (c : Fin 2048), i = ix3 b h c := ⟨i 0, i 1, i 2, eq_ix3 i⟩
  have hb := b.isLt
  have hh := h.isLt
  have hc := c.isLt
  have e26 : idx_main_v26 (ix3 b h c) = ix4 b h c (0 : Fin 1) := funext fun a => Fin.ext (by
    match a with
    | ⟨0, _⟩ => show ((b.val * 64 + h.val) * 2048 + c.val) / 131072 = b.val; omega
    | ⟨1, _⟩ => show ((b.val * 64 + h.val) * 2048 + c.val) / 2048 % 64 = h.val; omega
    | ⟨2, _⟩ => show ((b.val * 64 + h.val) * 2048 + c.val) / 1 % 2048 = c.val; omega
    | ⟨3, _⟩ => rfl)
  rw [Cert.Spec.G_apply, val_main_v26_apply, e26, val_main_v25_apply, val_main_v22_apply, val_main_v24_apply,
    val_main_v23_apply, Ideal.addf_def]
  unfold Cert.Spec.rowOut
  refine congrArg₂ (· + ·) (Finset.sum_congr rfl fun d _ => ?_) ?_
  · have el : lidx_main_v22 (ix4 b h c (0 : Fin 1)) d = ix4 b h c d :=
      funext fun a => Fin.ext (by match a with | ⟨0, _⟩ => rfl | ⟨1, _⟩ => rfl | ⟨2, _⟩ => rfl | ⟨3, _⟩ => rfl)
    have er : ridx_main_v22 (ix4 b h c (0 : Fin 1)) d = ix2 d (0 : Fin 1) :=
      funext fun a => Fin.ext (by match a with | ⟨0, _⟩ => rfl | ⟨1, _⟩ => rfl)
    rw [el, er, hidden_apply]
  · exact congrArg x4 (funext fun a => Fin.ext (by match a with | ⟨0, _⟩ => rfl))

end Cert.RefValue

end
-- ==== Proof.PadRows.lean ====
/-
  Padding the last axis commutes with merging the two leading axes.

  Take an [8, 64, 2048] array, merge its two leading axes into one of extent 512, and pad the last axis with four
  entries in front and four behind: row b·64 + h of the result is row (b, h) of the array padded directly along its
  last axis. At columns 4 … 2051 both read the array's entry (b, h, column − 4); elsewhere both read the padding value.
-/
import proofs.«140190_j38079180046569_2_alg».proof.Proof.LibLayout3
import Idealize.ShloMosaic.Lib.KernelVsHost
import Idealize.ShloMosaic.Lib.ValueIdx

noncomputable section

namespace Cert.PadRows

open Idealize.ShloMosaic Idealize.ShloMosaic.ValueIdx

variable {α : Type}

theorem pad_rows (x : (⟨3, ![8, 64, 2048]⟩ : Shape).Idx → α) {u : Shape} (v : u.Idx → α) (hu : 0 < u.numel)
    (hc : (⟨3, ![8, 64, 2048]⟩ : Shape).ShapeCasts ⟨2, ![512, 2048]⟩)
    (h2 : (⟨2, ![512, 2048]⟩ : Shape).Pads ![0, 4] ![0, 4] ![0, 0] ⟨2, ![512, 2056]⟩)
    (h3 : (⟨3, ![8, 64, 2048]⟩ : Shape).Pads ![0, 0, 4] ![0, 0, 4] ![0, 0, 0] ⟨3, ![8, 64, 2056]⟩)
    (b : Fin 8) (h : Fin 64) (q : Fin 2056) (R : Fin 512) (hR : R.val = b.val * 64 + h.val) :
    pad ⟨2, ![512, 2056]⟩ ![0, 4] ![0, 4] ![0, 0] (shapeCast ⟨2, ![512, 2048]⟩ x hc) v h2 hu (ix2 R q)
      = pad ⟨3, ![8, 64, 2056]⟩ ![0, 0, 4] ![0, 0, 4] ![0, 0, 0] x v h3 hu (ix3 b h q) := by
  by_cases hin : 4 ≤ q.val ∧ q.val < 2052
  · have hq : q.val - 4 < 2048 := by omega
    rw [pad_apply_of_inside ![0, 4] ![0, 4] ![0, 0] (shapeCast ⟨2, ![512, 2048]⟩ x hc) v h2 hu (ix2 R q)
        (ix2 R ⟨q.val - 4, hq⟩) (fun a => by
          match a with
          | ⟨0, _⟩ => show R.val = 0 + R.val * (0 + 1); omega
          | ⟨1, _⟩ => show q.val = 4 + (q.val - 4) * (0 + 1); omega),
      pad_apply_of_inside ![0, 0, 4] ![0, 0, 4] ![0, 0, 0] x v h3 hu (ix3 b h q) (ix3 b h ⟨q.val - 4, hq⟩) (fun a => by
          match a with
          | ⟨0, _⟩ => show b.val = 0 + b.val * (0 + 1); omega
          | ⟨1, _⟩ => show h.val = 0 + h.val * (0 + 1); omega
          | ⟨2, _⟩ => show q.val = 4 + (q.val - 4) * (0 + 1); omega)]
    exact Cert.LibLayout3.shapeCast_abc_mc_apply x hc b h ⟨q.val - 4, hq⟩ R hR
  · rw [pad_apply_of_not_inside ![0, 4] ![0, 4] ![0, 0] (shapeCast ⟨2, ![512, 2048]⟩ x hc) v h2 hu (ix2 R q) (1 : Fin 2) (by
          show ¬(4 ≤ q.val ∧ (q.val - 4) % (0 + 1) = 0 ∧ (q.val - 4) / (0 + 1) < 2048)
          rintro ⟨h1, -, h3'⟩
          rw [Nat.zero_add, Nat.div_one] at h3'
          exact hin ⟨h1, by omega⟩),
      pad_apply_of_not_inside ![0, 0, 4] ![0, 0, 4] ![0, 0, 0] x v h3 hu (ix3 b h q) (2 : Fin 3) (by
          show ¬(4 ≤ q.val ∧ (q.val - 4) % (0 + 1) = 0 ∧ (q.val - 4) / (0 + 1) < 2048)
          rintro ⟨h1, -, h3'⟩
          rw [Nat.zero_add, Nat.div_one] at h3'
          exact hin ⟨h1, by omega⟩)]

end Cert.PadRows

end
-- ==== Proof.Bridge.lean ====
/-
  The kernel's result is the specification function.

  The kernel flattens the [8, 64, 2048] signal to 512 rows, pads each row, computes every output column of every
  padded row, and splits the rows back into (b, h). Row b·64 + h of the flattened padded array is row (b, h) of the
  signal padded directly along its last axis, so entry (b, h, c) of the kernel's result is output column c of that
  row: the specification's entry, stated over the same padded array the reference builds.
-/
import proofs.«140190_j38079180046569_2_alg».proof.Proof.KernelValue
import proofs.«140190_j38079180046569_2_alg».proof.Proof.RefValue
import proofs.«140190_j38079180046569_2_alg».proof.Proof.PadRows

noncomputable section
namespace Cert.Bridge

open Idealize.ShloMosaic Idealize.ShloMosaic.ValueIdx

theorem kernelOut_eq (x0 : Cert.KernelIdeal.S8x64x2048.Idx → EReal) (x1 : Cert.KernelIdeal.S9x128.Idx → EReal)
    (x2 : Cert.KernelIdeal.S128.Idx → EReal) (x3 : Cert.KernelIdeal.S128x1.Idx → EReal) (x4 : Cert.KernelIdeal.S1.Idx → EReal) :
    Cert.KernelValue.kernelOut x0 x1 x2 x3 x4
      = Cert.Spec.G (Ideal.ofBits .f32 0x00000000#32) (Cert.ReferenceIdeal.Read.val_main_v0 (F := Ideal) x0) x1 x2 x3 x4 := by
  funext i
  obtain ⟨b, h, c, rfl⟩ : ∃ (b : Fin 8) (h : Fin 64) (c : Fin 2048), i = ix3 b h c := ⟨i 0, i 1, i 2, eq_ix3 i⟩
  have hR : b.val * 64 + h.val < 512 := by have := b.isLt; have := h.isLt; omega
  unfold Cert.KernelValue.kernelOut
  refine (Cert.LibLayout3.shapeCast_mc_abc_apply _ _ b h c ⟨b.val * 64 + h.val, hR⟩ rfl).trans ?_
  rw [Cert.Spec.G_apply]
  unfold Cert.KernelValue.arrG
  refine congrArg (fun row => Cert.Spec.rowOut (Ideal.ofBits .f32 0x00000000#32) row x1 x2 x3 x4 c) (funext fun c' => ?_)
  unfold Cert.ReferenceIdeal.Read.val_main_v0
  exact Cert.PadRows.pad_rows x0 _ _ _ _ _ b h c' ⟨b.val * 64 + h.val, hR⟩ rfl

end Cert.Bridge
end
-- ==== Proof.lean ====
/-
  A sliding-window two-layer perceptron over the last axis of an [8, 64, 2048] signal.

  Both programs pad each of the 512 rows with four zeros in front and four behind and, for every output column c,
  send the nine padded entries c, …, c+8 through a 9-to-128 affine map, a rectifier, and a 128-to-1 affine map:

      out[b, h, c] = ( Σ_d max( Σ_k pad[b, h, c+k] · W1[k, d] + b1[d], 0 ) · W2[d, 0] ) + b2[0].

  The kernel flattens the rows, works on 64 rows per grid point and 128 columns per store, builds the windows by nine
  shifted slices, and takes the first layer on the matrix unit and the second as a lane sum; the reference gathers the
  windows and takes both layers as contractions. On the extended reals (a change of float format is the identity) the
  two are the same sums of the same products, entry by entry: no law beyond reading each operation at an index is
  needed, and the finiteness of the inputs is never used.

  The three frames are the generated ones (the reference's is its run with the result dropped); the idealization
  rewrote no operation, so its claim is trivial; the value claim puts the kernel's run (the generated frame run with
  the result read block by block) beside the reference's generated run and joins them through the specification.
-/
import proofs.«140190_j38079180046569_2_alg».proof.Defs
import proofs.«140190_j38079180046569_2_alg».proof.Proof.Gen.Kernel
import proofs.«140190_j38079180046569_2_alg».proof.Proof.Gen.Kernel.Skeleton
import proofs.«140190_j38079180046569_2_alg».proof.Proof.Gen.Kernel.Launch
import proofs.«140190_j38079180046569_2_alg».proof.Proof.Gen.Kernel.Points
import proofs.«140190_j38079180046569_2_alg».proof.Proof.Gen.Kernel.Frame
import proofs.«140190_j38079180046569_2_alg».proof.Proof.Gen.KernelIdeal
import proofs.«140190_j38079180046569_2_alg».proof.Proof.Gen.KernelIdeal.Skeleton
import proofs.«140190_j38079180046569_2_alg».proof.Proof.Gen.KernelIdeal.Launch
import proofs.«140190_j38079180046569_2_alg».proof.Proof.Gen.KernelIdeal.Points
import proofs.«140190_j38079180046569_2_alg».proof.Proof.Gen.KernelIdeal.Frame
import proofs.«140190_j38079180046569_2_alg».proof.Proof.Gen.ReferenceIdeal
import proofs.«140190_j38079180046569_2_alg».proof.Proof.Gen.Pre_finite_inputs
import proofs.«140190_j38079180046569_2_alg».proof.Proof.Gen.ReferenceIdeal.Run
import proofs.«140190_j38079180046569_2_alg».proof.Proof.Gen.ReferenceIdeal.Read
import proofs.«140190_j38079180046569_2_alg».proof.Proof.KernelValue
import proofs.«140190_j38079180046569_2_alg».proof.Proof.RefValue
import proofs.«140190_j38079180046569_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the specification function of the padded
    signal and the four parameter arrays in their result buffers. -/
theorem algebraic : Cert.algebraic_KernelIdeal_ReferenceIdeal := by
  intro m ρ m' ρ' _ hagree
  refine ⟨fun c => Cert.KernelValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v26_eq (F := Ideal) _ _ _ _ _).trans
    ((Cert.RefValue.ref_eq _ _ _ _ _).trans (Cert.Bridge.kernelOut_eq _ _ _ _ _).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
